-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S16384x1 : Shape := ⟨2, ![16384, 1]⟩
abbrev S8192x16384 : Shape := ⟨2, ![8192, 16384]⟩
abbrev S512x4096 : Shape := ⟨2, ![512, 4096]⟩
abbrev S512x1 : Shape := ⟨2, ![512, 1]⟩
abbrev S512x512 : Shape := ⟨2, ![512, 512]⟩
abbrev S4x2048x16384 : Shape := ⟨3, ![4, 2048, 16384]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S8192x4096, .bf16⟩
  | .hbm, ⟨5, _⟩ => ⟨S16384x1, .f32⟩
  | .hbm, ⟨6, _⟩ => ⟨S8192x16384, .f32⟩
  | .hbm, ⟨7, _⟩ => ⟨S4x2048x16384, .f32⟩
  | .local _ .vmem, ⟨0, _⟩ => ⟨S512x4096, .bf16⟩
  | .local _ .vmem, ⟨1, _⟩ => ⟨S512x4096, .bf16⟩
  | .local _ .vmem, ⟨2, _⟩ => ⟨S512x4096, .f32⟩
  | .local _ .vmem, ⟨3, _⟩ => ⟨S512x1, .f32⟩
  | .local _ .vmem, ⟨4, _⟩ => ⟨S512x512, .f32⟩
  | .local _ .vmem, ⟨5, _⟩ => ⟨S512x512, .f32⟩
  | .local _ .vmem, ⟨6, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S16384_S16384x1 : S16384.ShapeCasts S16384x1
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S512x512_S512x512_0_0 : ∀ a, (![0, 0] : Fin 2 → Nat) a + S512x512.size a ≤ S512x512.size a
  h_S512x512 : 0 < S512x512.numel
  shapeCasts_S8192x16384_S4x2048x16384 : S8192x16384.ShapeCasts S4x2048x16384
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x16384.size a
  hwx0_3 : ∀ i : grid0.Coords, EltTy.bits .f32 = 32 ∨ (Rect.block (s := S8192x16384) S512x512.size (cc0_transform_3 i) (hinb0_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S4x2048x16384 : Shape := ⟨3, ![4, 2048, 16384]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S_, .f32⟩
  | .hbm, ⟨4, _⟩ => ⟨S16384x4096, .f32⟩
  | .hbm, ⟨5, _⟩ => ⟨S16384x4096, .i1⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Pieces.lean ====
/-
  What one grid point leaves behind, as values.

  At the first of the sixteen row tiles of an output-channel tile the body quantizes and scales the 512 x 4096 weight
  block into the scratch buffer and then multiplies the 512 x 4096 row block of the input by it; at the other fifteen
  it only multiplies by the scratch contents the previous point left. Each buffer is written by ONE store over its
  whole extent, so what the buffer holds afterwards is that store's value: the quantized, scaled weight block for the
  scratch, the product for the output block. Stated for any float instance.
-/
import proofs.«154554_j80994493268388_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Ternary

open Cert.KernelIdeal Cert.KernelIdeal.Gen

variable {F : FTy → Type} [FloatOps F]

/-- The zero offsets of a two-axis block, as a constant function. -/
theorem hz : (![0, 0] : Fin 2 → Nat) = fun _ => 0 := funext fun a => by fin_cases a <;> rfl

/-- At the first row tile the scratch ends holding the quantized, scaled weight block: the value of its one whole store,
    computed from the weight block `x1` and the scale column `x2`. -/
theorem scratch_first (c : Dev nD) (i : grid0.Coords) (arg2 : Memref sig .tc .vmem S512x4096 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x4096 .bf16) (harg6 : arg6.IsWhole) (hc0 : cond0_0 i)
    (x0 : Vec F S512x4096 .bf16) (x1 : Vec F S512x4096 .f32) (x2 : Vec F S512x1 .f32) :
    sout0_A_0 c i arg2 harg2 arg3 harg3 arg4 harg4 arg5 harg5 arg6 harg6 hc0 x0 x1 x2 = k0_pay1 x1 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero (S := S512x4096) hz]
  simp only [View.readAt_eq_ld, harg3.read_unread, harg4.read_unread, View.ld_unit_zero (S := S512x4096) hz,
    View.ld_unit_zero (S := S512x1) hz]

/-- At the first row tile the output block is the product of the input rows `x0` with the weight block just quantized:
    the product's second operand is read back from the scratch after the store that covers it. -/
theorem out_first (c : Dev nD) (i : grid0.Coords) (arg2 : Memref sig .tc .vmem S512x4096 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x4096 .bf16) (harg6 : arg6.IsWhole) (hc0 : cond0_0 i)
    (x0 : Vec F S512x4096 .bf16) (x1 : Vec F S512x4096 .f32) (x2 : Vec F S512x1 .f32) :
    out0_A_3 c i arg2 harg2 arg3 harg3 arg4 harg4 arg5 harg5 arg6 harg6 hc0 x0 x1 x2 = k0_pay2 x0 (k0_pay1 x1 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S512x512) hz, View.readCov_unit_zero (S := S512x4096) _ hz]
  simp only [View.readAt_eq_ld, harg2.read_unread, harg3.read_unread, harg4.read_unread,
    View.ld_unit_zero (S := S512x4096) hz, View.ld_unit_zero (S := S512x1) hz]

/-- At a later row tile the output block is the product of the input rows `x0` with what the scratch already held. -/
theorem out_later (c : Dev nD) (i : grid0.Coords) (arg2 : Memref sig .tc .vmem S512x4096 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x4096 .bf16) (harg6 : arg6.IsWhole) (hc0 : ¬cond0_0 i)
    (x0 : Vec F S512x4096 .bf16) (x1 : Vec F S512x4096 .f32) (x2 : Vec F S512x1 .f32) (xs0 : Vec F S512x4096 .bf16) :
    out0_B_3 c i arg2 harg2 arg3 harg3 arg4 harg4 arg5 harg5 arg6 harg6 hc0 x0 x1 x2 xs0 = k0_pay2 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero (S := S512x512) hz]
  simp only [View.readAt_eq_ld, harg2.read_unread, harg6.read_unread, View.ld_unit_zero (S := S512x4096) hz]

end Cert.KernelIdeal.Ternary

end
-- ==== Proof.Points.lean ====
/-
  The grid, point by point.

  The 512 grid points are 32 output-channel tiles (outer) of 16 row tiles each (inner): point `t` works on row tile
  `t % 16` and channel tile `t / 16`. Its input block is rows `512 (t % 16) …` of the [8192, 4096] input, its weight and scale
  blocks are rows `512 (t / 16) …` of the weight matrix and of the scale column, and it writes block `(t % 16, t / 16)`
  of the [8192, 16384] output.

  The scratch buffer is rewritten only at the first row tile of a channel tile and carried unchanged through the other
  fifteen, so after EVERY point it holds the quantized, scaled weight block of that point's channel tile (induction on
  the point: `(t − 1) / 16 = t / 16` when `t` is not a multiple of 16). Hence every point's output block is the product of
  its input rows with its channel tile's quantized weights, whether or not it quantized them itself.
-/
import proofs.«154554_j80994493268388_2_alg».proof.Proof.Pieces
import Idealize.ShloMosaic.Lib.ValueIdx

noncomputable section

open Idealize.ShloMosaic Idealize.ShloMosaic.TcCoe Idealize.SL.Sem Idealize.ShloMosaic.ValueIdx

namespace Cert.KernelIdeal.Ternary

open Cert.KernelIdeal Cert.KernelIdeal.Gen

variable {F : FTy → Type} [FloatOps F]
variable (m : (ℓ : Loc nD τ sig) → Buf (Elt F) ℓ)

/-- The printed index maps over the grid: the input window moves with the row tile `t % 16`, the weight and scale windows
    with the channel tile `t / 16`, the output window with both. -/
theorem index_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = t.val / 16 :=
  (by decide +kernel : ∀ t : Fin grid0.N, _)

/-- The row tile and the channel tile of the point at position `n`. -/
def tileOf (n : ℕ) : Fin 16 := ⟨n % 16, Nat.mod_lt _ (by decide)⟩
def chanOf (n : ℕ) (h : n < cfg0.N) : Fin 32 := ⟨n / 16, by have hN : cfg0.N = 512 := N_0; omega⟩

/-- Rows `512 r …` of the [8192, 4096] input as the region finds it. -/
def xrows (c : Dev nD) (r : Fin 16) : Vec F S512x4096 .bf16 := fun y =>
  V m c main_v1 (ix2 (n0 := 8192) (n1 := 4096) ⟨r.val * 512 + (y 0).val, by have h : (y 0).val < 512 := (y 0).isLt; omega⟩ ⟨(y 1).val, (y 1).isLt⟩)

/-- Rows `512 j …` of the [16384, 4096] weight matrix. -/
def wrows (c : Dev nD) (j : Fin 32) : Vec F S512x4096 .f32 := fun y =>
  V m c main_arg1 (ix2 (n0 := 16384) (n1 := 4096) ⟨j.val * 512 + (y 0).val, by have h : (y 0).val < 512 := (y 0).isLt; omega⟩ ⟨(y 1).val, (y 1).isLt⟩)

/-- Rows `512 j …` of the [16384, 1] scale column. -/
def scol (c : Dev nD) (j : Fin 32) : Vec F S512x1 .f32 := fun y =>
  V m c main_v2 (ix2 (n0 := 16384) (n1 := 1) ⟨j.val * 512 + (y 0).val, by have h : (y 0).val < 512 := (y 0).isLt; omega⟩ ⟨(y 1).val, (y 1).isLt⟩)

/-- A slab's entry `(a, k)` is the array's entry at the index the caller names, given the two coordinates' arithmetic. -/
theorem xrows_apply (c : Dev nD) (r : Fin 16) (a : Fin 512) (k : Fin 4096) (i : S8192x4096.Idx)
    (h0 : (i 0).val = r.val * 512 + a.val) (h1 : (i 1).val = k.val) : xrows m c r (ix2 a k) = V m c main_v1 i :=
  congrArg (V m c main_v1) (funext fun d => Fin.ext (by
    match d with
    | ⟨0, _⟩ => exact h0.symm
    | ⟨1, _⟩ => exact h1.symm))

theorem wrows_apply (c : Dev nD) (j : Fin 32) (b : Fin 512) (k : Fin 4096) (i : S16384x4096.Idx)
    (h0 : (i 0).val = j.val * 512 + b.val) (h1 : (i 1).val = k.val) : wrows m c j (ix2 b k) = V m c main_arg1 i :=
  congrArg (V m c main_arg1) (funext fun d => Fin.ext (by
    match d with
    | ⟨0, _⟩ => exact h0.symm
    | ⟨1, _⟩ => exact h1.symm))

theorem scol_apply (c : Dev nD) (j : Fin 32) (b : Fin 512) (i : S16384x1.Idx)
    (h0 : (i 0).val = j.val * 512 + b.val) : scol m c j (ix2 b (0 : Fin 1)) = V m c main_v2 i :=
  congrArg (V m c main_v2) (funext fun d => Fin.ext (by
    match d with
    | ⟨0, _⟩ => exact h0.symm
    | ⟨1, _⟩ => have h := (i 1).isLt; show (0 : Nat) = (i 1).val; have h' : (i 1).val < 1 := h; omega))

/-- The input window's block at point `t` is the input's row tile `t % 16`. -/
theorem iblk0_eq (c : Dev nD) (t : Fin cfg0.N) : (iblk m c 0 t : Vec F S512x4096 .bf16) = xrows m c (tileOf t.val) := by
  obtain ⟨e0, e1, -⟩ := index_facts t
  funext y
  unfold iblk xrows tileOf
  rw [View.read_apply]
  show V m c main_v1 _ = V m c main_v1 _
  refine congrArg (V m c main_v1) (funext fun a => Fin.ext ?_)
  match a with
  | ⟨0, _⟩ => show win0_0.index t (0 : Fin 2) * 512 + 1 * (y 0).val = t.val % 16 * 512 + (y 0).val; rw [e0]; omega
  | ⟨1, _⟩ => show win0_0.index t (1 : Fin 2) * 4096 + 1 * (y 1).val = (y 1).val; rw [e1]; omega

/-- The weight window's block at point `t` is the weight rows of channel tile `t / 16`. -/
theorem iblk1_eq (c : Dev nD) (t : Fin cfg0.N) : (iblk m c 1 t : Vec F S512x4096 .f32) = wrows m c (chanOf t.val t.isLt) := by
  obtain ⟨-, -, e0, e1, -⟩ := index_facts t
  funext y
  unfold iblk wrows chanOf
  rw [View.read_apply]
  show V m c main_arg1 _ = V m c main_arg1 _
  refine congrArg (V m c main_arg1) (funext fun a => Fin.ext ?_)
  match a with
  | ⟨0, _⟩ => show win0_1.index t (0 : Fin 2) * 512 + 1 * (y 0).val = t.val / 16 * 512 + (y 0).val; rw [e0]; omega
  | ⟨1, _⟩ => show win0_1.index t (1 : Fin 2) * 4096 + 1 * (y 1).val = (y 1).val; rw [e1]; omega

/-- The scale window's block at point `t` is the scale rows of channel tile `t / 16`. -/
theorem iblk2_eq (c : Dev nD) (t : Fin cfg0.N) : (iblk m c 2 t : Vec F S512x1 .f32) = scol m c (chanOf t.val t.isLt) := by
  obtain ⟨-, -, -, -, e0, e1, -⟩ := index_facts t
  funext y
  unfold iblk scol chanOf
  rw [View.read_apply]
  show V m c main_v2 _ = V m c main_v2 _
  refine congrArg (V m c main_v2) (funext fun a => Fin.ext ?_)
  match a with
  | ⟨0, _⟩ => show win0_2.index t (0 : Fin 2) * 512 + 1 * (y 0).val = t.val / 16 * 512 + (y 0).val; rw [e0]; omega
  | ⟨1, _⟩ => show win0_2.index t (1 : Fin 2) * 1 + 1 * (y 1).val = (y 1).val; rw [e1]; omega

/-- The quantized, scaled weight block of channel tile `j`: what the body stores into the scratch from that tile's weight
    rows and scale rows. -/
def qblock (c : Dev nD) (j : Fin 32) : Vec F S512x4096 .bf16 := k0_pay1 (wrows m c j) (scol m c j)

/-- A point that is a first row tile leaves its own channel tile's quantized block in the scratch. -/
theorem scratch_at_first (c : Dev nD) (t : Fin cfg0.N) (h0 : t.val % 16 = 0) :
    (outsAt0 m c t.val t.isLt).2 = qblock m c (chanOf t.val t.isLt) := by
  rw [outsAt0_A m c t h0]
  dsimp only
  refine (scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
  rw [iblk1_eq, iblk2_eq]
  rfl

/-- A later row tile leaves the scratch as the point before left it. -/
theorem scratch_at_later (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- After every point the scratch holds the quantized block of that point's channel tile. -/
theorem scratch_eq (c : Dev nD) : ∀ (n : ℕ) (h : n < cfg0.N), (outsAt0 m c n h).2 = qblock m c (chanOf n h)
  | 0, h => scratch_at_first m c ⟨0, h⟩ rfl
  | n + 1, h => by
    by_cases h0 : (n + 1) % 16 = 0
    · exact scratch_at_first m c ⟨n + 1, h⟩ h0
    · refine (scratch_at_later m c ⟨n + 1, h⟩ h0).trans ?_
      show (outsAt0 m c n _).2 = _
      rw [scratch_eq c n]
      exact congrArg (qblock m c) (Fin.ext (by show n / 16 = (n + 1) / 16; omega))

/-- Every point's output block: its input rows times its channel tile's quantized block. -/
theorem out_eq (c : Dev nD) (t : Fin cfg0.N) :
    (outsAt0 m c t.val t.isLt).1 = k0_pay2 (xrows m c (tileOf t.val)) (qblock m c (chanOf t.val t.isLt)) := by
  by_cases h0 : t.val % 16 = 0
  · rw [outsAt0_A m c t h0]
    dsimp only
    refine (out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
    rw [iblk0_eq, iblk1_eq, iblk2_eq]
    rfl
  · rw [outsAt0_B m c t h0]
    dsimp only
    refine (out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    rw [iblk0_eq, scratch_eq]
    refine congrArg (fun j => k0_pay2 (xrows m c (tileOf t.val)) (qblock m c j)) (Fin.ext ?_)
    show (t.val - 1) / 16 = t.val / 16
    omega

end Cert.KernelIdeal.Ternary

end
-- ==== Proof.Spec.lean ====
/-
  The ternary-weight linear layer on the extended reals.

  A weight `w` is quantized to `tern w` — one above one half, minus one below minus one half, zero between — and
  scaled by its output channel's scale; the layer's output at row `(b, r)` and channel `n` is the sum over the 4096
  inputs `k` of `x (b, r, k) · (tern (w (n, k)) · s n)`. Written once over the [4, 2048, 4096] input (`G`) and once over the
  same input laid out as 8192 rows with the scale as a column (`G2`).

  The straight-through form `w + (tern w − w)` is `tern w` whenever `w` is a real number: both are finite, so the
  subtraction and the addition cancel. At an infinite weight they do not (`⊤ + (1 − ⊤) = ⊥`).
-/
import Idealize.ShloMosaic.PureOps.Ideal
import Idealize.ShloMosaic.PureOps.Ideal.Laws
import Idealize.ShloMosaic.Lib.ValueIdx

noncomputable section

namespace Cert.Ternary

open Idealize.ShloMosaic Idealize.ShloMosaic.ValueIdx

/-- The ternary value of a weight, spelt as the two nested selections both programs make: `1` where `w > 1/2`, else `-1`
    where `w < -1/2`, else `0`. The thresholds and the three values stay the binary words they are written as. -/
def tern (w : EReal) : EReal :=
  Scalar.select (Ideal.cmp .ogt w (Ideal.ofBits .f32 0x3F000000#32)) (Ideal.ofBits .f32 0x3F800000#32)
    (Scalar.select (Ideal.cmp .olt w (Ideal.ofBits .f32 0xBF000000#32)) (Ideal.ofBits .f32 0xBF800000#32)
      (Ideal.ofBits .f32 0x00000000#32))

/-- The word `0x3F800000` is the real number one. -/
theorem bits_one : Ideal.ofBits .f32 0x3F800000#32 = ((1 : ℝ) : EReal) := by
  simp [Ideal.ofBits, Ideal.ieee]
  norm_cast
  norm_num

/-- The word `0xBF800000` is the real number minus one. -/
theorem bits_neg_one : Ideal.ofBits .f32 0xBF800000#32 = ((-1 : ℝ) : EReal) := by
  simp [Ideal.ofBits, Ideal.ieee]
  norm_cast
  norm_num

/-- The ternary value is always a real number (one of 1, -1, 0). -/
theorem tern_real (w : EReal) : ∃ q : ℝ, tern w = (q : EReal) := by
  unfold tern Scalar.select
  split_ifs
  · exact ⟨1, bits_one⟩
  · exact ⟨-1, bits_neg_one⟩
  · exact ⟨0, by rw [Ideal.ofBits_zero_f32]; rfl⟩

/-- For two real numbers, `w + (q − w) = q` on the extended reals. -/
theorem add_sub_cancel_real (w q : ℝ) : (w : EReal) + ((q : EReal) - (w : EReal)) = (q : EReal) := by
  rw [← EReal.coe_sub, ← EReal.coe_add]
  exact congrArg _ (by ring)

/-- The straight-through form of a finite weight is its ternary value. -/
theorem ste_eq_tern (w : EReal) (hw : ∃ r : ℝ, w = (r : EReal)) : w + (tern w - w) = tern w := by
  obtain ⟨r, rfl⟩ := hw
  obtain ⟨q, hq⟩ := tern_real (r : EReal)
  rw [hq]
  exact add_sub_cancel_real r q

/-- The layer's output over the input as given: `[4, 2048, 4096]` rows against `[16384, 4096]` weights and `[16384]` scales. -/
def G (x : (⟨3, ![4, 2048, 4096]⟩ : Shape).Idx → EReal) (w : (⟨2, ![16384, 4096]⟩ : Shape).Idx → EReal)
    (s : (⟨1, ![16384]⟩ : Shape).Idx → EReal) : (⟨3, ![4, 2048, 16384]⟩ : Shape).Idx → EReal :=
  fun i => ∑ k : Fin 4096, x (ix3 (i 0) (i 1) k) * (tern (w (ix2 (i 2) k)) * s (ix1 (i 2)))

/-- The same over the input laid out as `[8192, 4096]` rows and the scale as a `[16384, 1]` column. -/
def G2 (x : (⟨2, ![8192, 4096]⟩ : Shape).Idx → EReal) (w : (⟨2, ![16384, 4096]⟩ : Shape).Idx → EReal)
    (s : (⟨2, ![16384, 1]⟩ : Shape).Idx → EReal) : (⟨2, ![8192, 16384]⟩ : Shape).Idx → EReal :=
  fun i => ∑ k : Fin 4096, x (ix2 (i 0) k) * (tern (w (ix2 (i 1) k)) * s (ix2 (i 1) (0 : Fin 1)))

end Cert.Ternary

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibSharedCols.lean ====
/-
  A matrix product contracting the COLUMN axis of both operands, read at an entry.

  For a left operand `[M, K]` and a right operand `[N, K]`, both contracted along their second axis, with no batch axes
  — the product `A · Bᵀ` of a linear layer `x · Wᵀ` —, the entry `(a, b)` of the `[M, N]` result is the sum over `k < K` of
  `lhs (a, k) · rhs (b, k)`: for the matrix unit's product into a zero accumulator and for the host's `dot_general`, on the
  extended reals. Generic in the three sizes; the dimension record's six lists are taken as hypotheses (each is `rfl` for
  a printed record).
-/
import proofs.«154554_j80994493268388_2_alg».proof.Proof.LibContract

namespace Idealize.ShloMosaic.SharedCols

open Idealize.ShloMosaic.ValueIdx

variable {M N K : Nat} (d : DotDims ⟨2, ![M, K]⟩ ⟨2, ![N, K]⟩ ⟨2, ![M, N]⟩)

/-- Two coordinates of an index at equal positions are equal numbers. -/
private theorem coord_congr {s : Shape} (i : s.Idx) :
    ∀ (p q : Nat) (hp : p < s.rank) (hq : q < s.rank), p = q → (i ⟨p, hp⟩).val = (i ⟨q, hq⟩).val := by
  intro p q hp hq e; subst e; rfl

/-- The left operand's row coordinate at the result's entry `i` is `i`'s row. -/
theorem lhs_row (hlb : d.lhsBatch = []) (hln : d.lhsNonContracting = [0]) (i : (⟨2, ![M, N]⟩ : Shape).Idx) (q : d.contr.Idx) :
    (d.lhsIdx i q 0).val = (i 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_congr i _ _ _ _ (by simp [hlb, hln])

/-- The right operand's row coordinate at the result's entry `i` is `i`'s column. -/
theorem rhs_row (hlb : d.lhsBatch = []) (hln : d.lhsNonContracting = [0]) (hrb : d.rhsBatch = []) (hrn : d.rhsNonContracting = [0])
    (i : (⟨2, ![M, N]⟩ : Shape).Idx) (q : d.contr.Idx) : (d.rhsIdx i q 0).val = (i 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_congr i _ _ _ _ (by simp [hlb, hln, hrn])

variable (hlb : d.lhsBatch = []) (hln : d.lhsNonContracting = [0]) (hlc : d.lhsContracting = [1])
  (hrb : d.rhsBatch = []) (hrn : d.rhsNonContracting = [0]) (hrc : d.rhsContracting = [1])
  (hrank : d.contr.rank = 1) (hsize : d.contr.size ⟨0, by omega⟩ = K)

include hlb hln hlc in
/-- The left operand's index at entry `(a, b)` and contracted coordinate `k` is `(a, k)`. -/
theorem lhs_index (a : Fin M) (b : Fin N) (k : Fin K) :
    d.lhsIdx (ix2 a b) ((contrEquiv1 d K hrank hsize).symm k) = ix2 a k :=
  funext fun x => Fin.ext (by
    match x with
    | ⟨0, _⟩ => exact lhs_row d hlb hln _ _
    | ⟨1, _⟩ => exact (d.lhsIdx_val_of_single hlc _ _).trans (contrEquiv1_symm_val d K hrank hsize k))

include hlb hln hrb hrn hrc in
/-- The right operand's index there is `(b, k)`. -/
theorem rhs_index (a : Fin M) (b : Fin N) (k : Fin K) :
    d.rhsIdx (ix2 a b) ((contrEquiv1 d K hrank hsize).symm k) = ix2 b k :=
  funext fun x => Fin.ext (by
    match x with
    | ⟨0, _⟩ => exact rhs_row d hlb hln hrb hrn _ _
    | ⟨1, _⟩ => exact (d.rhsIdx_val_of_single hrc _ _).trans (contrEquiv1_symm_val d K hrank hsize k))

include hlb hln hlc hrb hrn hrc hrank hsize in
/-- The matrix unit's product into a zero accumulator, read at `(a, b)`. -/
theorem matmul_zero_apply {φ₁ φ₂ : FTy} (prec : Option ContractPrecision)
    (lhs : FVec Ideal ⟨2, ![M, K]⟩ φ₁) (rhs : FVec Ideal ⟨2, ![N, K]⟩ φ₂) (a : Fin M) (b : Fin N) :
    FloatOps.matmul d prec lhs rhs (constant ⟨2, ![M, N]⟩ .f32 0x00000000#32) (ix2 a b)
      = ∑ k : Fin K, lhs (ix2 a k) * rhs (ix2 b k) :=
  ContractSingle.matmul_zero_single d prec K hrank hsize lhs rhs (ix2 a b) (fun k => lhs (ix2 a k)) (fun k => rhs (ix2 b k))
    (fun k => congrArg lhs (lhs_index d hlb hln hlc hrank hsize a b k))
    (fun k => congrArg rhs (rhs_index d hlb hln hrb hrn hrc hrank hsize a b k))

include hlb hln hlc hrb hrn hrc hrank hsize in
/-- The host's `dot_general`, read at `(a, b)`. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (a : Fin M) (b : Fin N) :
    FloatOps.dotGeneral d prec sched lhs rhs (ix2 a b) = ∑ k : Fin K, lhs (ix2 a k) * rhs (ix2 b k) :=
  ContractSingle.dotGeneral_single d prec sched K hrank hsize lhs rhs (ix2 a b) (fun k => lhs (ix2 a k)) (fun k => rhs (ix2 b k))
    (fun k => congrArg lhs (lhs_index d hlb hln hlc hrank hsize a b k))
    (fun k => congrArg rhs (rhs_index d hlb hln hrb hrn hrc hrank hsize a b k))

end Idealize.ShloMosaic.SharedCols
-- ==== Proof.Payload.lean ====
/-
  The two values the kernel body stores, read at an entry, on the extended reals.

  The scratch store's value at row `p`, column `k` is the ternary value of the weight block's entry `(p, k)` times the
  scale column's entry `(p, 0)`: comparisons, selections and the product act entry by entry, the scale column is spread
  across the 4096 columns, and the narrowing to the 16-bit format changes nothing on the extended reals.
  The output store's value at `(a, b)` is the matrix unit's product into a zero accumulator, both operands contracted
  along their column axis: the sum over `k` of `lhs (a, k) · rhs (b, k)`.
-/
import proofs.«154554_j80994493268388_2_alg».proof.Proof.Gen.KernelIdeal.Skeleton
import proofs.«154554_j80994493268388_2_alg».proof.Proof.Spec
import proofs.«154554_j80994493268388_2_alg».proof.Proof.LibSharedCols
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Ternary

open Cert.KernelIdeal Cert.KernelIdeal.Gen Cert.Ternary

/-- A 512-entry column spread across 4096 columns, read at `(p, k)`, is the column's entry `p`. -/
theorem spread_col (v : FVec Ideal S512x1 .f32) (p : Fin 512) (k : Fin 4096) :
    broadcastTo S512x4096 v broadcasts_S512x1_S512x4096 (ix2 p k) = v (ix2 p (0 : Fin 1)) :=
  broadcastTo_apply v broadcasts_S512x1_S512x4096 (ix2 p k) (ix2 p (0 : Fin 1)) (fun a => by
    match a with
    | ⟨0, _⟩ => show p.val = if (512 : Nat) = 1 then 0 else p.val; rw [if_neg (by decide)]
    | ⟨1, _⟩ => show 0 = if (1 : Nat) = 1 then 0 else k.val; rw [if_pos rfl])

/-- The value stored into the scratch, at row `p` and column `k`. -/
theorem quantized_apply (wb : FVec Ideal S512x4096 .f32) (sc : FVec Ideal S512x1 .f32) (p : Fin 512) (k : Fin 4096) :
    k0_pay1 (F := Ideal) wb sc (ix2 p k) = tern (wb (ix2 p k)) * sc (ix2 p (0 : Fin 1)) := by
  unfold k0_pay1
  simp only [shapeCast_self]
  show tern (wb (ix2 p k)) * broadcastTo S512x4096 sc broadcasts_S512x1_S512x4096 (ix2 p k) = _
  rw [spread_col]

/-- The value stored into the output block, at `(a, b)`: rows of the two operands multiplied entry by entry and summed. -/
theorem product_apply (l r : FVec Ideal S512x4096 .bf16) (a b : Fin 512) :
    k0_pay2 (F := Ideal) l r (ix2 a b) = ∑ k : Fin 4096, l (ix2 a k) * r (ix2 b k) := by
  unfold k0_pay2
  simp only [shapeCast_self]
  exact SharedCols.matmul_zero_apply dot_S512x4096_S512x4096_S512x512_1_1_0_0_n_n rfl rfl rfl rfl rfl rfl rfl rfl none l r a b

/-- The same at an entry given as one index `j`, its two coordinates taken as numbers below 512. -/
theorem product_at (l r : FVec Ideal S512x4096 .bf16) (j : S512x512.Idx) :
    k0_pay2 (F := Ideal) l r j
      = ∑ k : Fin 4096, l (ix2 (⟨(j 0).val, (j 0).isLt⟩ : Fin 512) k) * r (ix2 (⟨(j 1).val, (j 1).isLt⟩ : Fin 512) k) :=
  (congrArg (k0_pay2 (F := Ideal) l r)
    (funext fun d => by match d with | ⟨0, _⟩ => rfl | ⟨1, _⟩ => rfl :
      j = ix2 (⟨(j 0).val, (j 0).isLt⟩ : Fin 512) (⟨(j 1).val, (j 1).isLt⟩ : Fin 512))).trans (product_apply l r _ _)

end Cert.KernelIdeal.Ternary

end
-- ==== Proof.HostEnds.lean ====
/-
  The host operations around the kernel's region, as values.

  Before the region: the [4, 2048, 4096] input is laid out as [8192, 4096] rows and narrowed to the 16-bit format; the
  [16384] scale is laid out as a [16384, 1] column. After the region: the [8192, 16384] output is laid out as
  [4, 2048, 16384]. Each is the same elements in row-major order under another shape.
-/
import proofs.«154554_j80994493268388_2_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem

namespace Cert.KernelIdeal.Ternary

open Cert.KernelIdeal Cert.KernelIdeal.Gen

variable {F : FTy → Type} [FloatOps F]
variable (m : (ℓ : Loc nD τ sig) → Buf (Elt F) ℓ)

/-- The region finds the input as the launch input re-laid as [8192, 4096] and narrowed. -/
theorem input_rows (c : Dev nD) :
    V m c main_v1 = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- The region finds the scale as the launch scale re-laid as a [16384, 1] column. -/
theorem scale_column (c : Dev nD) :
    V m c main_v2 = shapeCast S16384x1 (m ((c : Thread nD τ).loc main_arg2)) shapeCasts_S16384_S16384x1 := by
  show StableHlo.after hostOps0 (fun b => m (c, b)) (Proc.devRef .tc main_v2) = _
  after_results
  rfl

/-- The program's result is the region's output array re-laid as [4, 2048, 16384]. -/
theorem result_relaid (c : Dev nD) :
    Pipeline.afterTail₀ cfgs (dats m) 0 (V0 m) [hostOps1] c main_v4
      = shapeCast S4x2048x16384 ((dats m 0 c).arrAt 3 cfg0.N) shapeCasts_S8192x16384_S4x2048x16384 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w (cfgs 0).N) 3
  rw [hw]
  rfl

end Cert.KernelIdeal.Ternary

end
-- ==== Proof.Final.lean ====
/-
  The kernel's result array, on the extended reals.

  Point `t` writes back block `(t % 16, t / 16)` of the [8192, 16384] output, and that block is the block of ONE function
  of the arrays the region finds: entry `(r, n)` is the sum over `k` of `x2 (r, k) · (tern (w (n, k)) · s2 (n, 0))` — the
  input's row tile `t % 16` supplies `x2 (r, ·)`, the channel tile `t / 16`'s quantized block supplies the rest. Entry
  `(r, n)` lies in the block of the point `16 (n / 512) + r / 512`, so the 512 blocks cover the array and the array ends
  equal to that function. Re-laid as [4, 2048, 16384], with the input's rows `2048 b + r` read back as `(b, r)` and the
  scale column as the scale, it is the layer's output `G`.
-/
import proofs.«154554_j80994493268388_2_alg».proof.Proof.Points
import proofs.«154554_j80994493268388_2_alg».proof.Proof.Payload
import proofs.«154554_j80994493268388_2_alg».proof.Proof.HostEnds
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Ternary

open Cert.KernelIdeal Cert.KernelIdeal.Gen Cert.Ternary

variable (m : (ℓ : Loc nD τ sig) → Buf (Elt Ideal) ℓ) (ρ : Dev nD → PrngReg)

/-- The region's output array as one function of the arrays the region finds. -/
def regionOut (c : Dev nD) : Buf (Elt Ideal) ((c : Thread nD τ).loc main_v3) :=
  G2 (V m c main_v1) (V m c main_arg1) (V m c main_v2)

/-- What point `t` writes back is block `t` of that function. -/
theorem flushed_eq (c : Dev nD) (t : Fin cfg0.N) :
    (dats m 0 c).flushed 3 t = ((cfg0.win 3).blk t).view.read (Elt Ideal) (regionOut m c) := by
  show (cfg0.win 3).cut (grid0.coords t) ((dats m 0 c).after 3 t) = _
  rw [after0_3, out_eq]
  obtain ⟨-, -, -, -, -, -, e0, e1⟩ := index_facts t
  funext y
  have hy0 : (y 0).val < 512 := (y 0).isLt
  have hy1 : (y 1).val < 512 := (y 1).isLt
  have r0 : (((((cfg0.win 3).blk t).view.emb y)) 0).val = (tileOf t.val).val * 512 + (y 0).val := by
    show win0_3.index t (0 : Fin 2) * 512 + 1 * (y 0).val = t.val % 16 * 512 + (y 0).val
    rw [e0]; omega
  have r1 : (((((cfg0.win 3).blk t).view.emb y)) 1).val = (chanOf t.val t.isLt).val * 512 + (y 1).val := by
    show win0_3.index t (1 : Fin 2) * 512 + 1 * (y 1).val = t.val / 16 * 512 + (y 1).val
    rw [e1]; omega
  show k0_pay2 (F := Ideal) (xrows m c (tileOf t.val)) (qblock m c (chanOf t.val t.isLt)) y
    = regionOut m c ((((cfg0.win 3).blk t).view.emb y))
  refine (product_at _ _ y).trans ?_
  unfold regionOut G2
  refine Finset.sum_congr rfl fun k _ => ?_
  refine congrArg₂ (fun p q : EReal => p * q) (xrows_apply m c _ ⟨(y 0).val, hy0⟩ k _ r0 rfl) ?_
  unfold qblock
  refine (quantized_apply _ _ ⟨(y 1).val, hy1⟩ k).trans ?_
  exact congrArg₂ (fun p q : EReal => tern p * q) (wrows_apply m c _ ⟨(y 1).val, hy1⟩ k _ r1 rfl)
    (scol_apply m c _ ⟨(y 1).val, hy1⟩ _ r1)

/-- An index of the output is in point `t`'s block iff each coordinate is in the block's range on its axis. -/
theorem mem_blk (t : Fin cfg0.N) (i : S8192x16384.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v3).slice (win0_3.rect t)).set ↔ _
  rw [View.set_slice_whole, Rect.mem_set_unit]
  exact Iff.rfl

/-- Every entry `(r, n)` of the output is in the block of the point with channel tile `n / 512` and row tile `r / 512`. -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have hN : cfg0.N = 512 := N_0
  obtain ⟨t, ht⟩ : ∃ t : Fin cfg0.N, t.val = (i 1).val / 512 * 16 + (i 0).val / 512 := ⟨⟨_, by omega⟩, rfl⟩
  obtain ⟨-, -, -, -, -, -, e0, e1⟩ := index_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 512 ≤ (i 1).val ∧ (i 1).val < win0_3.index t (1 : Fin 2) * 512 + 512
    rw [e1, ht]; omega

/-- So the output array ends equal to that function. -/
theorem final_out (c : Dev nD) : (dats m 0 c).arrAt 3 cfg0.N = regionOut m c :=
  (dats m 0 c).arrAt_eq_of_cover 3 (regionOut m c) (fun t _ => flushed_eq m c t) covered

/-- The [8192, 16384] function of the re-laid input and scale, re-laid as [4, 2048, 16384], is the layer's output. -/
theorem relaid_eq (x : FVec Ideal S4x2048x4096 .f32) (w : FVec Ideal S16384x4096 .f32) (s : FVec Ideal S16384 .f32) :
    shapeCast S4x2048x16384
      (G2 (truncf .bf16 (shapeCast S8192x4096 x shapeCasts_S4x2048x4096_S8192x4096) bitsLt_bf16_f32) w
        (shapeCast S16384x1 s shapeCasts_S16384_S16384x1)) shapeCasts_S8192x16384_S4x2048x16384
      = G x w s := by
  funext i
  have h0 : (i 0).val < 4 := (i 0).isLt
  have h1 : (i 1).val < 2048 := (i 1).isLt
  have h2 : (i 2).val < 16384 := (i 2).isLt
  refine (shapeCast_apply _ _ i (ix2 (⟨(i 0).val * 2048 + (i 1).val, by omega⟩ : Fin 8192) (⟨(i 2).val, h2⟩ : Fin 16384)) (by
    rw [Shape.rowMajor_val_two, Shape.rowMajor_val_three]
    show ((i 0).val * 2048 + (i 1).val) * 16384 + (i 2).val = ((i 0).val * 2048 + (i 1).val) * 16384 + (i 2).val
    rfl)).trans ?_
  show (∑ k : Fin 4096, shapeCast S8192x4096 x shapeCasts_S4x2048x4096_S8192x4096
          (ix2 (⟨(i 0).val * 2048 + (i 1).val, by omega⟩ : Fin 8192) k)
        * (tern (w (ix2 (⟨(i 2).val, h2⟩ : Fin 16384) k))
            * shapeCast S16384x1 s shapeCasts_S16384_S16384x1 (ix2 (⟨(i 2).val, h2⟩ : Fin 16384) (0 : Fin 1))))
      = ∑ k : Fin 4096, x (ix3 (i 0) (i 1) k) * (tern (w (ix2 (i 2) k)) * s (ix1 (i 2)))
  refine Finset.sum_congr rfl fun k _ => ?_
  refine congrArg₂ (fun p q : EReal => p * q) ?_ (congrArg₂ (fun p q : EReal => tern p * q) rfl ?_)
  · exact shapeCast_apply x _ _ (ix3 (i 0) (i 1) k) (by
      rw [Shape.rowMajor_val_three, Shape.rowMajor_val_two]
      show ((i 0).val * 2048 + (i 1).val) * 4096 + k.val = ((i 0).val * 2048 + (i 1).val) * 4096 + k.val
      rfl)
  · exact shapeCast_apply s _ _ (ix1 (i 2)) (by
      rw [Shape.rowMajor_val_one, Shape.rowMajor_val_two]
      show (i 2).val = (i 2).val * 1 + 0
      omega)

/-- The program's result, as the layer's output of the launch arrays. -/
theorem result_value (c : Dev nD) :
    Pipeline.afterTail₀ cfgs (dats m) 0 (V0 m) [hostOps1] c main_v4
      = G (m ((c : Thread nD τ).loc main_arg0)) (m ((c : Thread nD τ).loc main_arg1)) (m ((c : Thread nD τ).loc main_arg2)) := by
  rw [result_relaid, final_out]
  unfold regionOut
  rw [input_rows, scale_column, V_main_arg1]
  exact relaid_eq _ _ _

/-- The kernel's run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨
      ((h c).2 main_v4 (Pipeline.mem_restRefs_of main_v4 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Ternary

end
-- ==== Proof.RefSpec.lean ====
/-
  The reference computes the layer's output.

  Entry by entry the reference forms `w + (q − w)` with `q` the ternary value of `w` (the same two selections on the
  same thresholds), multiplies by the channel's scale spread along the row, and contracts the inputs against the result
  over the 4096 columns. For a real weight `w + (q − w) = q`, so the entry `(b, r, n)` is the sum over `k` of
  `x (b, r, k) · (tern (w (n, k)) · s n)`.
-/
import proofs.«154554_j80994493268388_2_alg».proof.Proof.Gen.ReferenceIdeal.Read
import proofs.«154554_j80994493268388_2_alg».proof.Proof.Spec

noncomputable section

open Idealize.ShloMosaic Idealize.ShloMosaic.ValueIdx

namespace Cert.ReferenceIdeal.Ternary

open Cert.ReferenceIdeal Cert.ReferenceIdeal.Read Cert.Ternary

/-- The reference's selected value at a weight entry is the ternary value of that entry. -/
theorem selected_apply (w : (⟨S16384x4096, .f32⟩ : BufTy).Contents (Elt Ideal)) (i : S16384x4096.Idx) :
    val_main_v6 (F := Ideal) w i = tern (w i) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- The reference's scaled weight at `(n, k)`: for a real weight, its ternary value times the channel's scale. -/
theorem scaled_apply (w : (⟨S16384x4096, .f32⟩ : BufTy).Contents (Elt Ideal)) (s : (⟨S16384, .f32⟩ : BufTy).Contents (Elt Ideal))
    (hw : ∀ i, ∃ r : ℝ, w i = (r : EReal)) (n : Fin 16384) (k : Fin 4096) :
    val_main_v11 (F := Ideal) w s (ix2 n k) = tern (w (ix2 n k)) * s (ix1 n) := by
  have h8 : val_main_v8 (F := Ideal) w (ix2 n k) = tern (w (ix2 n k)) := by
    rw [val_main_v8_apply, val_main_v7_apply, selected_apply]
    exact ste_eq_tern _ (hw _)
  have h10 : val_main_v10 (F := Ideal) s (ix2 n k) = s (ix1 n) := by
    rw [val_main_v10_apply, val_main_v9_apply]
    exact congrArg s (funext fun a => Fin.ext (by match a with | ⟨0, _⟩ => rfl))
  rw [val_main_v11_apply, h8, h10]
  rfl

/-- The reference's result is the layer's output, when every weight is a real number. -/
theorem result_eq (x : (⟨S4x2048x4096, .f32⟩ : BufTy).Contents (Elt Ideal)) (w : (⟨S16384x4096, .f32⟩ : BufTy).Contents (Elt Ideal))
    (s : (⟨S16384, .f32⟩ : BufTy).Contents (Elt Ideal)) (hw : ∀ i, ∃ r : ℝ, w i = (r : EReal)) :
    val_main_v12 (F := Ideal) x w s = G x w s := by
  funext i
  rw [val_main_v12_apply]
  show _ = ∑ k : Fin 4096, x (ix3 (i 0) (i 1) k) * (tern (w (ix2 (i 2) k)) * s (ix1 (i 2)))
  refine Finset.sum_congr rfl fun k _ => ?_
  have hl : lidx_main_v12 i k = ix3 (i 0) (i 1) k :=
    funext fun a => Fin.ext (by match a with | ⟨0, _⟩ => rfl | ⟨1, _⟩ => rfl | ⟨2, _⟩ => rfl)
  have hr : ridx_main_v12 i k = ix2 (i 2) k :=
    funext fun a => Fin.ext (by match a with | ⟨0, _⟩ => rfl | ⟨1, _⟩ => rfl)
  rw [hl, hr]
  exact congrArg (fun q : EReal => x (ix3 (i 0) (i 1) k) * q) (scaled_apply w s hw (i 2) k)

end Cert.ReferenceIdeal.Ternary

end
-- ==== Proof.Finite.lean ====
/-
  The precondition says every weight is a real number.

  The precondition is the conjunction of three tests, one per input: every entry's absolute value is below plus
  infinity. Reading the weight's test back entry by entry: `max w (−w) < ⊤` rules out both infinities, so `w` is a real.
-/
import proofs.«154554_j80994493268388_2_alg».proof.Pre_finite_inputs
import Idealize.ShloMosaic.Lib.ReduceAll
import Idealize.ShloMosaic.Lib.ValueIdx
import Idealize.ShloMosaic.PureOps.Ideal.Laws

noncomputable section

open Idealize.ShloMosaic

namespace Cert.Pre_finite_inputs.Finite

open Cert.Pre_finite_inputs

/-- The scalar shape has one index. -/
instance : Subsingleton S_.Idx := ⟨fun a b => funext fun d => d.elim0⟩

/-- The word `0x7F800000` is plus infinity. -/
theorem bits_top : Ideal.ofBits .f32 0x7F800000#32 = (⊤ : EReal) := by
  simp [Ideal.ofBits, Ideal.ieee]

/-- An extended real whose absolute value compares below plus infinity is a real number. -/
theorem real_of_abs_lt_top (x : EReal)
    (h : Ideal.cmp .olt (max x (-x)) (Ideal.ofBits .f32 0x7F800000#32) = 1#1) : ∃ r : ℝ, x = (r : EReal) := by
  rw [bits_top] at h
  have hlt : max x (-x) < ⊤ := by
    by_contra hn
    have h0 : Ideal.cmp .olt (max x (-x)) ⊤ = 0#1 := by
      unfold Ideal.cmp
      rw [decide_eq_false hn]
      rfl
    rw [h0] at h
    exact absurd h (by decide)
  induction x using EReal.rec with
  | bot => exact absurd hlt (by simp)
  | coe r => exact ⟨r, rfl⟩
  | top => exact absurd hlt (by simp)

/-- Under the precondition every entry of the weight matrix is a real number. -/
theorem weight_real [Facts] (a0 : FVec Ideal S4x2048x4096 .f32) (a1 : FVec Ideal S16384x4096 .f32) (a2 : FVec Ideal S16384 .f32)
    (h : fn (F := Ideal) a0 a1 a2 = fun _ => 1#1) (i : S16384x4096.Idx) : ∃ r : ℝ, a1 i = (r : EReal) := by
  have h0 := congrFun h ValueIdx.ix0
  dsimp only [fn] at h0
  obtain ⟨h01, -⟩ := IntOp.andi_eq_one.1 h0
  obtain ⟨-, h1⟩ := IntOp.andi_eq_one.1 h01
  exact real_of_abs_lt_top (a1 i) (Host.reduce_andi_all _ _ _ _ _ h1 i)

end Cert.Pre_finite_inputs.Finite

end
-- ==== Proof.lean ====
/-
  A linear layer with ternary weights: `out (b, r, n) = Σ_k x (b, r, k) · (tern (w (n, k)) · s n)`, where `tern w` is 1 above
  one half, −1 below minus one half and 0 between.

  The kernel lays the input out as 8192 rows, cuts the work into 32 output-channel tiles of 16 row tiles, quantizes and
  scales a channel tile's 512 × 4096 weight block once — at the tile's first row tile, into a scratch buffer it keeps for
  the other fifteen — and multiplies each 512 × 4096 row block of the input by it. The reference forms the straight-through
  weight `w + (tern w − w)`, scales it and contracts the whole input against it.

  On the extended reals the two agree when every weight is a real number, which the precondition gives: then
  `w + (tern w − w) = tern w` (module Spec), the reference's entry is the sum above (module RefSpec), and the kernel's result
  array — each block the product of an input row tile with its channel tile's quantized weights (modules Pieces, Payload,
  Points), the blocks covering the output (module Final), the layouts before and after the kernel the same elements in
  row-major order (module HostEnds) — is the same sum. Changes of float format are the identity there, and a product
  accumulated from zero is the plain sum, so nothing else separates the two programs. The ideal pass rewrote no operation,
  so the idealized kernel is the kernel's own text read on the extended reals.
-/
import proofs.«154554_j80994493268388_2_alg».proof.Defs
import proofs.«154554_j80994493268388_2_alg».proof.Proof.Gen.Kernel
import proofs.«154554_j80994493268388_2_alg».proof.Proof.Gen.Kernel.Skeleton
import proofs.«154554_j80994493268388_2_alg».proof.Proof.Gen.Kernel.Launch
import proofs.«154554_j80994493268388_2_alg».proof.Proof.Gen.Kernel.Points
import proofs.«154554_j80994493268388_2_alg».proof.Proof.Gen.Kernel.Frame
import proofs.«154554_j80994493268388_2_alg».proof.Proof.Gen.KernelIdeal
import proofs.«154554_j80994493268388_2_alg».proof.Proof.Gen.KernelIdeal.Skeleton
import proofs.«154554_j80994493268388_2_alg».proof.Proof.Gen.KernelIdeal.Launch
import proofs.«154554_j80994493268388_2_alg».proof.Proof.Gen.KernelIdeal.Points
import proofs.«154554_j80994493268388_2_alg».proof.Proof.Gen.KernelIdeal.Frame
import proofs.«154554_j80994493268388_2_alg».proof.Proof.Gen.ReferenceIdeal
import proofs.«154554_j80994493268388_2_alg».proof.Proof.Gen.Pre_finite_inputs
import proofs.«154554_j80994493268388_2_alg».proof.Proof.Gen.ReferenceIdeal.Run
import proofs.«154554_j80994493268388_2_alg».proof.Proof.Gen.ReferenceIdeal.Read
import proofs.«154554_j80994493268388_2_alg».proof.Proof.Final
import proofs.«154554_j80994493268388_2_alg».proof.Proof.RefSpec
import proofs.«154554_j80994493268388_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the layer's output of the kernel's arguments: the
    kernel by its run read back, the reference by its run, its stages read at an entry, and the weights' finiteness. -/
theorem algebraic : Cert.algebraic_KernelIdeal_ReferenceIdeal := by
  intro m ρ m' ρ' hpre hagree
  refine ⟨fun c => Cert.Ternary.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Ternary.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2]
  exact Cert.ReferenceIdeal.Ternary.result_eq _ _ _
    (fun i => Cert.Pre_finite_inputs.Finite.weight_real _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
